-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S8x2 : Shape := ⟨2, ![8, 2]⟩
abbrev S8 : Shape := ⟨1, ![8]⟩
abbrev S4x8 : Shape := ⟨2, ![4, 8]⟩
abbrev S4 : Shape := ⟨1, ![4]⟩
abbrev S2x4 : Shape := ⟨2, ![2, 4]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_arg4 : FVec F S4 .f32) (main_arg5 : FVec F S2x4 .f32) (main_v13 : IVec S_ 1) (main_v16 : IVec S4x8 1) : IVec S_ 1 :=
  let main_c_5 : IVec S_ 1 := constantI S_ 1 1#1
  let main_v17 : IVec S_ 1 := (fun x v => Host.reduce IntOp.andi x v reducesTo_S4x8_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x4 .f32 := Host.absf main_arg5
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  main_v28

def fn {F : FTy → Type} [FloatOps F] (main_arg0 : FVec F S4194304x2 .f32) (main_arg1 : FVec F S8x2 .f32) (main_arg2 : FVec F S8 .f32) (main_arg3 : FVec F S4x8 .f32) (main_arg4 : FVec F S4 .f32) (main_arg5 : FVec F S2x4 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S8x2 .f32 := Host.absf main_arg1
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S4x8 .f32 := Host.absf main_arg3
  let main_cst_4 : FVec F S_ .f32 := constant S_ .f32 0x7F800000#32
  let main_v15 : FVec F S4x8 .f32 := broadcastInDim S4x8 ![] bcast_S_S4x8 main_cst_4
  let main_v16 : IVec S4x8 1 := cmpf .olt main_v14 main_v15
  fn_part1 (F := F) main_arg4 main_arg5 main_v13 main_v16
-- ==== Kernel.lean ====
abbrev S4194304x2 : Shape := ⟨2, ![4194304, 2]⟩
abbrev S8x2 : Shape := ⟨2, ![8, 2]⟩
abbrev S8 : Shape := ⟨1, ![8]⟩
abbrev S4x8 : Shape := ⟨2, ![4, 8]⟩
abbrev S4 : Shape := ⟨1, ![4]⟩
abbrev S2x4 : Shape := ⟨2, ![2, 4]⟩
abbrev S_ : Shape := ⟨0, ![]⟩
abbrev S4096x2 : Shape := ⟨2, ![4096, 2]⟩
abbrev S2x8 : Shape := ⟨2, ![2, 8]⟩
abbrev S4096x8 : Shape := ⟨2, ![4096, 8]⟩
abbrev S1x8 : Shape := ⟨2, ![1, 8]⟩
abbrev S8x4 : Shape := ⟨2, ![8, 4]⟩
abbrev S4096x4 : Shape := ⟨2, ![4096, 4]⟩
abbrev S1x4 : Shape := ⟨2, ![1, 4]⟩

abbrev nBuf : Space → Nat
  | .hbm => 9
  | .vmem => 9
  | .smem => 0
  | _ => 0

abbrev bufTy : (tb : Table) → Fin (tcTables nBuf tb) → BufTy
  | .hbm, ⟨0, _⟩ => ⟨S4194304x2, .f32⟩
  | .hbm, ⟨1, _⟩ => ⟨S8x2, .f32⟩
  | .hbm, ⟨2, _⟩ => ⟨S8, .f32⟩
  | .hbm, ⟨3, _⟩ => ⟨S4x8, .f32⟩
  | .hbm, ⟨4, _⟩ => ⟨S4, .f32⟩
  | .hbm, ⟨5, _⟩ => ⟨S2x4, .f32⟩
  | .hbm, ⟨6, _⟩ => ⟨S_, .f32⟩
  | .hbm, ⟨7, _⟩ => ⟨S4, .f32⟩
  | .hbm, ⟨8, _⟩ => ⟨S4194304x2, .f32⟩
  | .local _ .vmem, ⟨0, _⟩ => ⟨S4096x2, .f32⟩
  | .local _ .vmem, ⟨1, _⟩ => ⟨S4096x2, .f32⟩
  | .local _ .vmem, ⟨2, _⟩ => ⟨S8x2, .f32⟩
  | .local _ .vmem, ⟨3, _⟩ => ⟨S8, .f32⟩
  | .local _ .vmem, ⟨4, _⟩ => ⟨S4x8, .f32⟩
  | .local _ .vmem, ⟨5, _⟩ => ⟨S4, .f32⟩
  | .local _ .vmem, ⟨6, _⟩ => ⟨S4, .f32⟩
  | .local _ .vmem, ⟨7, _⟩ => ⟨S4096x2, .f32⟩
  | .local _ .vmem, ⟨8, _⟩ => ⟨S4096x2, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2x4_S4_d0 : S2x4.ReducesTo [0] S4
  h_S_ : 0 < S_.numel
  inb_S4096x2_S4096x2_0_0 : ∀ a, (![0, 0] : Fin 2 → Nat) a + S4096x2.size a ≤ S4096x2.size a
  h_S4096x2 : 0 < S4096x2.numel
  inb_S8x2_S8x2_0_0 : ∀ a, (![0, 0] : Fin 2 → Nat) a + S8x2.size a ≤ S8x2.size a
  h_S8x2 : 0 < S8x2.numel
  inb_S8_S8_0 : ∀ a, (![0] : Fin 1 → Nat) a + S8.size a ≤ S8.size a
  h_S8 : 0 < S8.numel
  inb_S4x8_S4x8_0_0 : ∀ a, (![0, 0] : Fin 2 → Nat) a + S4x8.size a ≤ S4x8.size a
  h_S4x8 : 0 < S4x8.numel
  inb_S4_S4_0 : ∀ a, (![0] : Fin 1 → Nat) a + S4.size a ≤ S4.size a
  h_S4 : 0 < S4.numel
  shapeCasts_S4_S4 : S4.ShapeCasts S4
  transposes_S8x2_p1_0_S2x8 : S8x2.Transposes [1, 0] S2x8
  shapeCasts_S8_S1x8 : S8.ShapeCasts S1x8
  broadcasts_S1x8_S4096x8 : S1x8.Broadcasts S4096x8
  transposes_S4x8_p1_0_S8x4 : S4x8.Transposes [1, 0] S8x4
  shapeCasts_S4_S1x4 : S4.ShapeCasts S1x4
  broadcasts_S1x4_S4096x4 : S1x4.Broadcasts S4096x4
  shapeCasts_S1x4_S1x4 : S1x4.ShapeCasts S1x4
  dot_S4096x2_S2x8_S4096x8_1_0_0_1_n_n_wf : DotDims.WF S4096x2 S2x8 S4096x8 [1] [0] [0] [1] [] []
  dot_S4096x8_S8x4_S4096x4_1_0_0_1_n_n_wf : DotDims.WF S4096x8 S8x4 S4096x4 [1] [0] [0] [1] [] []
  dot_S4096x4_S4x8_S4096x8_1_0_0_1_n_n_wf : DotDims.WF S4096x4 S4x8 S4096x8 [1] [0] [0] [1] [] []
  dot_S4096x8_S8x2_S4096x2_1_0_0_1_n_n_wf : DotDims.WF S4096x8 S8x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S4194304x2.size a
  hwx0_0 : ∀ i : grid0.Coords, EltTy.bits .f32 = 32 ∨ (Rect.block (s := S4194304x2) S4096x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x2.size a ≤ S8x2.size a
  hwx0_1 : ∀ i : grid0.Coords, EltTy.bits .f32 = 32 ∨ (Rect.block (s := S8x2) S8x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8.size a ≤ S4x8.size a
  hwx0_3 : ∀ i : grid0.Coords, EltTy.bits .f32 = 32 ∨ (Rect.block (s := S4x8) S4x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4.size a ≤ S4.size a
  hwx0_5 : ∀ i : grid0.Coords, EltTy.bits .f32 = 32 ∨ (Rect.block (s := S4) S4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x2.size a ≤ S4194304x2.size a
  hwx0_6 : ∀ i : grid0.Coords, EltTy.bits .f32 = 32 ∨ (Rect.block (s := S4194304x2) S4096x2.size (cc0_transform_6 i) (hinb0_6 i)).WholeWords (EltTy.packing .f32)

variable [Facts₀]

def dot_S4096x2_S2x8_S4096x8_1_0_0_1_n_n : DotDims S4096x2 S2x8 S4096x8 where
  lhsContracting := [1]
  rhsContracting := [0]
  lhsNonContracting := [0]
  rhsNonContracting := [1]
  lhsBatch := []
  rhsBatch := []
  wf := dot_S4096x2_S2x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x4_S4x8_S4096x8_1_0_0_1_n_n : DotDims S4096x4 S4x8 S4096x8 where
  lhsContracting := [1]
  rhsContracting := [0]
  lhsNonContracting := [0]
  rhsNonContracting := [1]
  lhsBatch := []
  rhsBatch := []
  wf := dot_S4096x4_S4x8_S4096x8_1_0_0_1_n_n_wf
def dot_S4096x8_S8x2_S4096x2_1_0_0_1_n_n : DotDims S4096x8 S8x2 S4096x2 where
  lhsContracting := [1]
  rhsContracting := [0]
  lhsNonContracting := [0]
  rhsNonContracting := [1]
  lhsBatch := []
  rhsBatch := []
  wf := dot_S4096x8_S8x2_S4096x2_1_0_0_1_n_n_wf

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S4096x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S8x2 : Shape := ⟨2, ![8, 2]⟩
abbrev S8 : Shape := ⟨1, ![8]⟩
abbrev S4x8 : Shape := ⟨2, ![4, 8]⟩
abbrev S4 : Shape := ⟨1, ![4]⟩
abbrev S2x4 : Shape := ⟨2, ![2, 4]⟩
abbrev S2x8 : Shape := ⟨2, ![2, 8]⟩
abbrev S4194304x8 : Shape := ⟨2, ![4194304, 8]⟩
abbrev S1x8 : Shape := ⟨2, ![1, 8]⟩
abbrev S_ : Shape := ⟨0, ![]⟩
abbrev S8x4 : Shape := ⟨2, ![8, 4]⟩
abbrev S4194304x4 : Shape := ⟨2, ![4194304, 4]⟩
abbrev S1x4 : Shape := ⟨2, ![1, 4]⟩
abbrev S4x2 : Shape := ⟨2, ![4, 2]⟩

abbrev nBuf : Space → Nat
  | .hbm => 48
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S8x2, .f32⟩
  | .hbm, ⟨2, _⟩ => ⟨S8, .f32⟩
  | .hbm, ⟨3, _⟩ => ⟨S4x8, .f32⟩
  | .hbm, ⟨4, _⟩ => ⟨S4, .f32⟩
  | .hbm, ⟨5, _⟩ => ⟨S2x4, .f32⟩
  | .hbm, ⟨6, _⟩ => ⟨S2x8, .f32⟩
  | .hbm, ⟨7, _⟩ => ⟨S4194304x8, .f32⟩
  | .hbm, ⟨8, _⟩ => ⟨S1x8, .f32⟩
  | .hbm, ⟨9, _⟩ => ⟨S4194304x8, .f32⟩
  | .hbm, ⟨10, _⟩ => ⟨S4194304x8, .f32⟩
  | .hbm, ⟨11, _⟩ => ⟨S_, .f32⟩
  | .hbm, ⟨12, _⟩ => ⟨S4194304x8, .f32⟩
  | .hbm, ⟨13, _⟩ => ⟨S4194304x8, .f32⟩
  | .hbm, ⟨14, _⟩ => ⟨S_, .f32⟩
  | .hbm, ⟨15, _⟩ => ⟨S4194304x8, .f32⟩
  | .hbm, ⟨16, _⟩ => ⟨S4194304x8, .i1⟩
  | .hbm, ⟨17, _⟩ => ⟨S_, .f32⟩
  | .hbm, ⟨18, _⟩ => ⟨S4194304x8, .f32⟩
  | .hbm, ⟨19, _⟩ => ⟨S8x4, .f32⟩
  | .hbm, ⟨20, _⟩ => ⟨S4194304x4, .f32⟩
  | .hbm, ⟨21, _⟩ => ⟨S1x4, .f32⟩
  | .hbm, ⟨22, _⟩ => ⟨S4194304x4, .f32⟩
  | .hbm, ⟨23, _⟩ => ⟨S4194304x4, .f32⟩
  | .hbm, ⟨24, _⟩ => ⟨S_, .f32⟩
  | .hbm, ⟨25, _⟩ => ⟨S4194304x4, .f32⟩
  | .hbm, ⟨26, _⟩ => ⟨S4194304x4, .f32⟩
  | .hbm, ⟨27, _⟩ => ⟨S_, .f32⟩
  | .hbm, ⟨28, _⟩ => ⟨S4194304x4, .f32⟩
  | .hbm, ⟨29, _⟩ => ⟨S4194304x4, .i1⟩
  | .hbm, ⟨30, _⟩ => ⟨S_, .f32⟩
  | .hbm, ⟨31, _⟩ => ⟨S4194304x4, .f32⟩
  | .hbm, ⟨32, _⟩ => ⟨S4x2, .f32⟩
  | .hbm, ⟨33, _⟩ => ⟨S4194304x2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4194304x2, .f32⟩
  | .hbm, ⟨38, _⟩ => ⟨S4194304x4, .f32⟩
  | .hbm, ⟨39, _⟩ => ⟨S_, .f32⟩
  | .hbm, ⟨40, _⟩ => ⟨S4194304x4, .f32⟩
  | .hbm, ⟨41, _⟩ => ⟨S4194304x4, .f32⟩
  | .hbm, ⟨42, _⟩ => ⟨S4194304x8, .f32⟩
  | .hbm, ⟨43, _⟩ => ⟨S_, .f32⟩
  | .hbm, ⟨44, _⟩ => ⟨S4194304x8, .f32⟩
  | .hbm, ⟨45, _⟩ => ⟨S4194304x8, .f32⟩
  | .hbm, ⟨46, _⟩ => ⟨S4194304x2, .f32⟩
  | .hbm, ⟨47, _⟩ => ⟨S4194304x2, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  transposes_S8x2_S2x8_1_0 : S8x2.Transposes [1, 0] S2x8
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  transposes_S4x8_S8x4_1_0 : S4x8.Transposes [1, 0] S8x4
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  transposes_S2x4_S4x2_1_0 : S2x4.Transposes [1, 0] S4x2
  reducesTo_S4194304x2_S_d0_1 : S4194304x2.ReducesTo [0, 1] S_
  h_S_ : 0 < S_.numel
  bcast_S_S4194304x2 : S_.BroadcastsInDim S4194304x2 (![] : Fin 0 → Fin S4194304x2.rank)
  dot_S4194304x2_S2x8_S4194304x8_1_0_0_1_n_n_wf : DotDims.WF S4194304x2 S2x8 S4194304x8 [1] [0] [0] [1] [] []
  dot_S4194304x8_S8x4_S4194304x4_1_0_0_1_n_n_wf : DotDims.WF S4194304x8 S8x4 S4194304x4 [1] [0] [0] [1] [] []
  dot_S4194304x4_S4x2_S4194304x2_1_0_0_1_n_n_wf : DotDims.WF S4194304x4 S4x2 S4194304x2 [1] [0] [0] [1] [] []
  dot_S4194304x2_S4x2_S4194304x4_1_1_0_0_n_n_wf : DotDims.WF S4194304x2 S4x2 S4194304x4 [1] [1] [0] [0] [] []
  dot_S4194304x4_S8x4_S4194304x8_1_1_0_0_n_n_wf : DotDims.WF S4194304x4 S8x4 S4194304x8 [1] [1] [0] [0] [] []
  dot_S4194304x8_S2x8_S4194304x2_1_1_0_0_n_n_wf : DotDims.WF S4194304x8 S2x8 S4194304x2 [1] [1] [0] [0] [] []

variable [Facts₀]

def dot_S4194304x2_S2x8_S4194304x8_1_0_0_1_n_n : DotDims S4194304x2 S2x8 S4194304x8 where
  lhsContracting := [1]
  rhsContracting := [0]
  lhsNonContracting := [0]
  rhsNonContracting := [1]
  lhsBatch := []
  rhsBatch := []
  wf := dot_S4194304x2_S2x8_S4194304x8_1_0_0_1_n_n_wf
def dot_S4194304x8_S8x4_S4194304x4_1_0_0_1_n_n : DotDims S4194304x8 S8x4 S4194304x4 where
  lhsContracting := [1]
  rhsContracting := [0]
  lhsNonContracting := [0]
  rhsNonContracting := [1]
  lhsBatch := []
  rhsBatch := []
  wf := dot_S4194304x8_S8x4_S4194304x4_1_0_0_1_n_n_wf
def dot_S4194304x4_S4x2_S4194304x2_1_0_0_1_n_n : DotDims S4194304x4 S4x2 S4194304x2 where
  lhsContracting := [1]
  rhsContracting := [0]
  lhsNonContracting := [0]
  rhsNonContracting := [1]
  lhsBatch := []
  rhsBatch := []
  wf := dot_S4194304x4_S4x2_S4194304x2_1_0_0_1_n_n_wf
def dot_S4194304x2_S4x2_S4194304x4_1_1_0_0_n_n : DotDims S4194304x2 S4x2 S4194304x4 where
  lhsContracting := [1]
  rhsContracting := [1]
  lhsNonContracting := [0]
  rhsNonContracting := [0]
  lhsBatch := []
  rhsBatch := []
  wf := dot_S4194304x2_S4x2_S4194304x4_1_1_0_0_n_n_wf
def dot_S4194304x4_S8x4_S4194304x8_1_1_0_0_n_n : DotDims S4194304x4 S8x4 S4194304x8 where
  lhsContracting := [1]
  rhsContracting := [1]
  lhsNonContracting := [0]
  rhsNonContracting := [0]
  lhsBatch := []
  rhsBatch := []
  wf := dot_S4194304x4_S8x4_S4194304x8_1_1_0_0_n_n_wf
def dot_S4194304x8_S2x8_S4194304x2_1_1_0_0_n_n : DotDims S4194304x8 S2x8 S4194304x2 where
  lhsContracting := [1]
  rhsContracting := [1]
  lhsNonContracting := [0]
  rhsNonContracting := [0]
  lhsBatch := []
  rhsBatch := []
  wf := dot_S4194304x8_S2x8_S4194304x2_1_1_0_0_n_n_wf

class Facts : Prop extends Facts₀ where

variable [Facts]
-- ==== Proof.Force.lean ====
/-
  The force of a two-layer rectifier network on a batch of planar positions, one position at a time.

  A position p = (p_0, p_1) goes through two affine layers, the first followed by a rectifier:
      a_j = Σ_d p_d · W1[j, d] + b1[j]   (j < 8),        h_j = a_j where a_j exceeds zero, zero elsewhere,
      u_k = Σ_j h_j · W2[k, j] + b2[k]   (k < 4).
  The energy is the sum of the two outputs of a linear read-out W3 of the rectified u, so its derivative with respect to
  the rectified u_k is the column sum s_k = Σ_o W3[o, k], the same for every position. Pulled back through the two
  rectifiers — a rectifier passes the derivative where its argument exceeds zero and passes zero elsewhere —
      g_k = s_k where u_k exceeds zero, zero elsewhere,
      e_j = Σ_k g_k · W2[k, j] where a_j exceeds zero, zero elsewhere,
  and the force on the position is minus the energy's gradient:  f_d = −Σ_j e_j · W1[j, d].

  Everything is an extended real and every sum and product is the extended reals' own; the order of the operations is
  the one written here, so no law that fails at an infinity is ever used. The zero that the rectifiers compare with and
  pass is the value of the all-zero word.

  Besides the definitions, the few laws by which two spellings of these formulas agree: a maximum with zero is the switch
  that passes its own argument; zero minus x is −x; zero plus x is x; the word of the float one is 1.
-/
import Idealize.ShloMosaic.PureOps.Ideal.Laws
import Idealize.ShloMosaic.Lib.ValueIdx

noncomputable section

open scoped BigOperators

namespace Cert.Force

open Idealize.ShloMosaic Idealize.ShloMosaic.ValueIdx

/-- The value of the all-zero word: what both rectifiers compare with, and what a closed switch passes. -/
abbrev zero : EReal := Ideal.ofBits .f32 0x00000000#32

/-- A switch: `a` where `x` exceeds zero, zero elsewhere. -/
def switch (x a : EReal) : EReal := Scalar.select (Ideal.cmp .ogt x zero) a zero

section Row

variable (W1 : (⟨2, ![8, 2]⟩ : Shape).Idx → EReal) (b1 : (⟨1, ![8]⟩ : Shape).Idx → EReal)
  (W2 : (⟨2, ![4, 8]⟩ : Shape).Idx → EReal) (b2 : (⟨1, ![4]⟩ : Shape).Idx → EReal)
  (s : Fin 4 → EReal) (p : Fin 2 → EReal)

/-- The first layer before its rectifier: a_j = Σ_d p_d · W1[j, d] + b1[j]. -/
def pre1 (j : Fin 8) : EReal := (∑ d : Fin 2, p d * W1 (ix2 j d)) + b1 (ix1 j)

/-- The second layer before its rectifier, of the rectified first layer: u_k = Σ_j h_j · W2[k, j] + b2[k]. -/
def pre2 (k : Fin 4) : EReal :=
  (∑ j : Fin 8, switch (pre1 W1 b1 p j) (pre1 W1 b1 p j) * W2 (ix2 k j)) + b2 (ix1 k)

/-- The energy's derivative with respect to a_j: the second rectifier switches s, W2 carries it back, the first rectifier
    switches the result. -/
def back (j : Fin 8) : EReal :=
  switch (pre1 W1 b1 p j) (∑ k : Fin 4, switch (pre2 W1 b1 W2 b2 p k) (s k) * W2 (ix2 k j))

/-- The force on the position: f_d = −Σ_j e_j · W1[j, d]. -/
def force (d : Fin 2) : EReal := -∑ j : Fin 8, back W1 b1 W2 b2 s p j * W1 (ix2 j d)

end Row

/-- The read-out's column sums: s_k = Σ_o W3[o, k]. -/
def colsum (W3 : (⟨2, ![2, 4]⟩ : Shape).Idx → EReal) (k : Fin 4) : EReal := ∑ o : Fin 2, W3 (ix2 o k)

/-- The whole result: entry (n, d) is the force's component d on position n, which is row n of `pos`. -/
def forces (pos : (⟨2, ![4194304, 2]⟩ : Shape).Idx → EReal) (W1 : (⟨2, ![8, 2]⟩ : Shape).Idx → EReal)
    (b1 : (⟨1, ![8]⟩ : Shape).Idx → EReal) (W2 : (⟨2, ![4, 8]⟩ : Shape).Idx → EReal) (b2 : (⟨1, ![4]⟩ : Shape).Idx → EReal)
    (W3 : (⟨2, ![2, 4]⟩ : Shape).Idx → EReal) : (⟨2, ![4194304, 2]⟩ : Shape).Idx → EReal :=
  fun i => force W1 b1 W2 b2 (colsum W3) (fun d => pos (ix2 (i 0) d)) (i 1)

/-! ## The laws between spellings -/

/-- The all-zero word denotes 0. -/
theorem zero_eq : zero = 0 := Ideal.ofBits_zero_f32

/-- The word of the float one denotes 1. -/
theorem one_word : Ideal.ofBits .f32 0x3F800000#32 = 1 := by
  simp [Ideal.ofBits, Ideal.ieee, -EReal.coe_mul]; norm_num

/-- A rectifier written as a maximum with zero is the switch that passes its own argument: on a linear order the larger of
    x and zero is x exactly where x exceeds zero. -/
theorem max_zero_eq_switch (x : EReal) : max x zero = switch x x := by
  unfold switch Scalar.select Ideal.cmp
  rw [zero_eq]
  by_cases h : (0 : EReal) < x
  · simp [h, max_eq_left h.le]
  · simp [h, max_eq_right (not_lt.mp h)]

/-- Zero minus x is −x. -/
theorem zero_sub_eq (x : EReal) : zero - x = -x := by rw [zero_eq, zero_sub]

/-- Zero plus x is x. -/
theorem zero_add_eq (x : EReal) : zero + x = x := by rw [zero_eq, zero_add]

end Cert.Force

end
-- ==== Proof.RefForce.lean ====
/-
  The reference program's result, read entry by entry, is the force of the network on each position.

  The reference differentiates the energy mechanically, so its run is a forward pass — two products with transposed
  weights, each followed by a broadcast bias, the first by a rectifier written as a maximum with zero — and a backward
  pass: a matrix of ones contracted with the read-out (which gives every row the read-out's column sums), switched by
  "second layer exceeds zero", contracted with the second weights, switched by "first layer exceeds zero", contracted with
  the first weights, and negated. Stage by stage, on row n, these are the quantities a, h, u, s, g, e, f of the
  specification: every contraction is a sum over its one contracted axis, every transpose and broadcast a re-indexing,
  the maximum with zero is the switch (the one law used), and a product with the float one is the other factor.
-/
import proofs.«105294_j20615843020916_2_alg».proof.Proof.Gen.ReferenceIdeal.Read
import proofs.«105294_j20615843020916_2_alg».proof.Proof.Force

noncomputable section

open scoped BigOperators

namespace Cert.ReferenceIdeal.RefForce

open Cert.ReferenceIdeal Cert.ReferenceIdeal.Gen Cert.ReferenceIdeal.Read Idealize.ShloMosaic Idealize.ShloMosaic.ValueIdx
open Cert.Force

/-- Two indices of a rank-2 shape with the same two coordinates are equal. -/
local macro "coords" : tactic => `(tactic| (funext a; match a with | ⟨0, _⟩ => rfl | ⟨1, _⟩ => rfl))

variable (x0 : (⟨S4194304x2, .f32⟩ : BufTy).Contents (Elt Ideal)) (x1 : (⟨S8x2, .f32⟩ : BufTy).Contents (Elt Ideal))
  (x2 : (⟨S8, .f32⟩ : BufTy).Contents (Elt Ideal)) (x3 : (⟨S4x8, .f32⟩ : BufTy).Contents (Elt Ideal))
  (x4 : (⟨S4, .f32⟩ : BufTy).Contents (Elt Ideal)) (x5 : (⟨S2x4, .f32⟩ : BufTy).Contents (Elt Ideal))
  (n : Fin 4194304)

/-- Row n of the positions. -/
abbrev row : Fin 2 → EReal := fun d => x0 (ix2 n d)

/-- The first layer before its rectifier, on row n: the product with the transposed first weights plus the bias. -/
theorem first_pre (j : Fin 8) : val_main_v4 (F := Ideal) x0 x1 x2 (ix2 n j) = pre1 x1 x2 (row x0 n) j := by
  rw [val_main_v4_apply, val_main_v1_apply, val_main_v3_apply, val_main_v2_apply, Ideal.addf_def]
  unfold pre1
  refine congrArg₂ (· + ·) (Finset.sum_congr rfl fun k _ => ?_) (congrArg x2 (by funext a; match a with | ⟨0, _⟩ => rfl))
  rw [val_main_v0_apply]
  exact congrArg₂ (· * ·) (congrArg x0 (by coords)) (congrArg x1 (by coords))

/-- The rectified first layer: the maximum with zero is the switch passing its own argument. -/
theorem first_act (j : Fin 8) :
    val_main_v5 (F := Ideal) x0 x1 x2 (ix2 n j) = switch (pre1 x1 x2 (row x0 n) j) (pre1 x1 x2 (row x0 n) j) := by
  rw [val_main_v5_apply, val_main_call0_v0_apply, val_main_call0_cst_apply, first_pre]
  exact max_zero_eq_switch _

/-- "The first layer exceeds zero", on row n. -/
theorem first_mask (j : Fin 8) :
    val_main_v7 (F := Ideal) x0 x1 x2 (ix2 n j) = Ideal.cmp .ogt (pre1 x1 x2 (row x0 n) j) zero := by
  rw [val_main_v7_apply, val_main_v6_apply, val_main_cst_apply, first_pre]
  rfl

/-- The second layer before its rectifier, on row n. -/
theorem second_pre (k : Fin 4) :
    val_main_v13 (F := Ideal) x0 x1 x2 x3 x4 (ix2 n k) = pre2 x1 x2 x3 x4 (row x0 n) k := by
  rw [val_main_v13_apply, val_main_v10_apply, val_main_v12_apply, val_main_v11_apply, Ideal.addf_def]
  unfold pre2
  refine congrArg₂ (· + ·) (Finset.sum_congr rfl fun j _ => ?_) (congrArg x4 (by funext a; match a with | ⟨0, _⟩ => rfl))
  have e : lidx_main_v10 (ix2 n k) j = ix2 n j := by coords
  rw [e, first_act, val_main_v9_apply]
  exact congrArg (_ * ·) (congrArg x3 (by coords))

/-- "The second layer exceeds zero", on row n. -/
theorem second_mask (k : Fin 4) :
    val_main_v16 (F := Ideal) x0 x1 x2 x3 x4 (ix2 n k) = Ideal.cmp .ogt (pre2 x1 x2 x3 x4 (row x0 n) k) zero := by
  rw [val_main_v16_apply, val_main_v15_apply, val_main_cst_1_apply, second_pre]
  rfl

/-- A row of ones contracted with the transposed read-out is the read-out's column sums, whatever the row. -/
theorem ones_readout (k : Fin 4) : val_main_v22 (F := Ideal) x5 (ix2 n k) = colsum x5 k := by
  rw [val_main_v22_apply]
  unfold colsum
  refine Finset.sum_congr rfl fun o _ => ?_
  rw [val_main_v21_apply, val_main_cst_4_apply, val_main_v18_apply, Ideal.ofBits_def, one_word, one_mul]
  exact congrArg x5 (by coords)

/-- The column sums switched by the second layer. -/
theorem second_back (k : Fin 4) :
    val_main_v24 (F := Ideal) x0 x1 x2 x3 x4 x5 (ix2 n k) = switch (pre2 x1 x2 x3 x4 (row x0 n) k) (colsum x5 k) := by
  rw [val_main_v24_apply, second_mask, ones_readout, val_main_v23_apply, val_main_cst_5_apply]
  rfl

/-- Carried back through the second weights and switched by the first layer. -/
theorem first_back (j : Fin 8) :
    val_main_v27 (F := Ideal) x0 x1 x2 x3 x4 x5 (ix2 n j) = back x1 x2 x3 x4 (colsum x5) (row x0 n) j := by
  have h : val_main_v25 (F := Ideal) x0 x1 x2 x3 x4 x5 (ix2 n j)
      = ∑ k : Fin 4, switch (pre2 x1 x2 x3 x4 (row x0 n) k) (colsum x5 k) * x3 (ix2 k j) := by
    rw [val_main_v25_apply]
    refine Finset.sum_congr rfl fun k _ => ?_
    have e : lidx_main_v25 (ix2 n j) k = ix2 n k := by coords
    rw [e, second_back, val_main_v9_apply]
    exact congrArg (_ * ·) (congrArg x3 (by coords))
  rw [val_main_v27_apply, first_mask, h, val_main_v26_apply, val_main_cst_6_apply]
  rfl

/-- The reference's result at (n, d): carried back through the first weights and negated. -/
theorem result_at (d : Fin 2) :
    val_main_v29 (F := Ideal) x0 x1 x2 x3 x4 x5 (ix2 n d) = force x1 x2 x3 x4 (colsum x5) (row x0 n) d := by
  rw [val_main_v29_apply, val_main_v28_apply, Ideal.hostNegf_def, Ideal.negf_def]
  unfold force
  refine congrArg Neg.neg (Finset.sum_congr rfl fun j _ => ?_)
  have e : lidx_main_v28 (ix2 n d) j = ix2 n j := by coords
  rw [e, first_back, val_main_v0_apply]
  exact congrArg (_ * ·) (congrArg x1 (by coords))

/-- The reference's result array is the array of forces. -/
theorem result_eq : val_main_v29 (F := Ideal) x0 x1 x2 x3 x4 x5 = forces x0 x1 x2 x3 x4 x5 := by
  funext i
  obtain ⟨n, d, rfl⟩ : ∃ (n : Fin 4194304) (d : Fin 2), i = ix2 n d := ⟨i 0, i 1, eq_ix2 i⟩
  exact result_at x0 x1 x2 x3 x4 x5 n d

end Cert.ReferenceIdeal.RefForce

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.BodyForce.lean ====
/-
  What the kernel's body stores, read entry by entry: on row r of its block of 4096 positions, the force of the network on
  that position.

  The body loads a block of positions and the whole weight and bias arrays, and a vector s of four numbers in the place of
  the read-out (the caller sums the read-out's columns before the call). Its one stored value is a composition of five
  stages, each a whole-block array: the first layer a = x·W1ᵀ + b1 as a matrix product into a zero accumulator plus a
  broadcast row; its rectified copy h, a select on "a exceeds zero"; the second layer u = h·W2ᵀ + b2; the derivative at
  the second layer g, a select of the broadcast s on "u exceeds zero"; the derivative at the first layer e, a select of
  g·W2 on "a exceeds zero"; and the result, zero minus e·W1. Each matrix product into the zero accumulator is a sum over
  its contracted axis, each transpose, cast and broadcast a re-indexing, each select the specification's switch, and zero
  minus a value is its negative.
-/
import proofs.«105294_j20615843020916_2_alg».proof.Proof.Gen.KernelIdeal.Skeleton
import proofs.«105294_j20615843020916_2_alg».proof.Proof.LibPlainMatmul
import proofs.«105294_j20615843020916_2_alg».proof.Proof.Force
import Idealize.ShloMosaic.Lib.ValueLayout
import Idealize.ShloMosaic.Lib.Pipeline.Value

noncomputable section

open scoped BigOperators

namespace Cert.KernelIdeal.BodyForce

open Cert.KernelIdeal Cert.KernelIdeal.Gen Idealize.ShloMosaic Idealize.ShloMosaic.ValueIdx
open Cert.Force

/-! ## The four matrix products, each into a zero accumulator, at an entry -/

theorem product_first (l : FVec Ideal S4096x2 .f32) (w : FVec Ideal S2x8 .f32) (r : Fin 4096) (j : Fin 8) :
    matmul dot_S4096x2_S2x8_S4096x8_1_0_0_1_n_n (some .fp32) l w (constant S4096x8 .f32 0x00000000#32) (ix2 r j)
      = ∑ d : Fin 2, l (ix2 r d) * w (ix2 d j) :=
  matmul_plain_zero_apply 4096 2 8 (some .fp32) l w r j

theorem product_second (l : FVec Ideal S4096x8 .f32) (w : FVec Ideal S8x4 .f32) (r : Fin 4096) (k : Fin 4) :
    matmul dot_S4096x8_S8x4_S4096x4_1_0_0_1_n_n (some .fp32) l w (constant S4096x4 .f32 0x00000000#32) (ix2 r k)
      = ∑ j : Fin 8, l (ix2 r j) * w (ix2 j k) :=
  matmul_plain_zero_apply 4096 8 4 (some .fp32) l w r k

theorem product_back_second (l : FVec Ideal S4096x4 .f32) (w : FVec Ideal S4x8 .f32) (r : Fin 4096) (j : Fin 8) :
    matmul dot_S4096x4_S4x8_S4096x8_1_0_0_1_n_n (some .fp32) l w (constant S4096x8 .f32 0x00000000#32) (ix2 r j)
      = ∑ k : Fin 4, l (ix2 r k) * w (ix2 k j) :=
  matmul_plain_zero_apply 4096 4 8 (some .fp32) l w r j

theorem product_back_first (l : FVec Ideal S4096x8 .f32) (w : FVec Ideal S8x2 .f32) (r : Fin 4096) (d : Fin 2) :
    matmul dot_S4096x8_S8x2_S4096x2_1_0_0_1_n_n (some .fp32) l w (constant S4096x2 .f32 0x00000000#32) (ix2 r d)
      = ∑ j : Fin 8, l (ix2 r j) * w (ix2 j d) :=
  matmul_plain_zero_apply 4096 8 2 (some .fp32) l w r d

/-! ## The body's stages -/

variable (x0 : FVec Ideal S4096x2 .f32) (x1 : FVec Ideal S8x2 .f32) (x2 : FVec Ideal S8 .f32) (x3 : FVec Ideal S4x8 .f32)
  (x4 : FVec Ideal S4 .f32) (x5 : FVec Ideal S4 .f32)

/-- The first layer before its rectifier, over the block. -/
abbrev firstPre : FVec Ideal S4096x8 .f32 :=
  addf (matmul dot_S4096x2_S2x8_S4096x8_1_0_0_1_n_n (some .fp32) x0 (transpose S2x8 [1, 0] x1 transposes_S8x2_p1_0_S2x8)
      (constant S4096x8 .f32 0x00000000#32))
    (broadcastTo S4096x8 (shapeCast S1x8 x2 shapeCasts_S8_S1x8) broadcasts_S1x8_S4096x8)

/-- "The first layer exceeds zero", over the block. -/
abbrev firstMask : IVec S4096x8 1 := cmpf .ogt (firstPre x0 x1 x2) (broadcast S4096x8 (Scalar.ofBits .f32 0x00000000#32))

/-- The rectified first layer. -/
abbrev firstAct : FVec Ideal S4096x8 .f32 :=
  select (firstMask x0 x1 x2) (firstPre x0 x1 x2) (broadcast S4096x8 (Scalar.ofBits .f32 0x00000000#32))

/-- The second layer before its rectifier. -/
abbrev secondPre : FVec Ideal S4096x4 .f32 :=
  addf (matmul dot_S4096x8_S8x4_S4096x4_1_0_0_1_n_n (some .fp32) (firstAct x0 x1 x2)
      (transpose S8x4 [1, 0] x3 transposes_S4x8_p1_0_S8x4) (constant S4096x4 .f32 0x00000000#32))
    (broadcastTo S4096x4 (shapeCast S1x4 x4 shapeCasts_S4_S1x4) broadcasts_S1x4_S4096x4)

/-- The energy's derivative at the second layer: the vector s on every row, switched by "the second layer exceeds zero". -/
abbrev secondBack : FVec Ideal S4096x4 .f32 :=
  select (cmpf .ogt (secondPre x0 x1 x2 x3 x4) (broadcast S4096x4 (Scalar.ofBits .f32 0x00000000#32)))
    (broadcastTo S4096x4 (shapeCast S1x4 (shapeCast S1x4 (shapeCast S4 x5 shapeCasts_S4_S4) shapeCasts_S4_S1x4)
      shapeCasts_S1x4_S1x4) broadcasts_S1x4_S4096x4)
    (broadcast S4096x4 (Scalar.ofBits .f32 0x00000000#32))

/-- The energy's derivative at the first layer. -/
abbrev firstBack : FVec Ideal S4096x8 .f32 :=
  select (firstMask x0 x1 x2)
    (matmul dot_S4096x4_S4x8_S4096x8_1_0_0_1_n_n (some .fp32) (secondBack x0 x1 x2 x3 x4 x5) x3
      (constant S4096x8 .f32 0x00000000#32))
    (broadcast S4096x8 (Scalar.ofBits .f32 0x00000000#32))

/-- The stored value is zero minus the first-layer derivative carried back through the first weights. -/
theorem stored_eq : k0_pay1 (F := Ideal) x0 x1 x2 x3 x4 x5
    = subf (broadcast S4096x2 (Scalar.ofBits .f32 0x00000000#32))
        (matmul dot_S4096x8_S8x2_S4096x2_1_0_0_1_n_n (some .fp32) (firstBack x0 x1 x2 x3 x4 x5) x1
          (constant S4096x2 .f32 0x00000000#32)) := rfl

/-! ## Each stage on row r -/

variable (r : Fin 4096)

/-- Row r of the block of positions. -/
abbrev row : Fin 2 → EReal := fun d => x0 (ix2 r d)

theorem firstPre_at (j : Fin 8) : firstPre x0 x1 x2 (ix2 r j) = pre1 x1 x2 (row x0 r) j := by
  unfold pre1
  refine congrArg₂ (· + ·) ?_ ?_
  · refine (product_first x0 _ r j).trans (Finset.sum_congr rfl fun d _ => congrArg (x0 (ix2 r d) * ·) ?_)
    exact transpose_ix2_apply x1 transposes_S8x2_p1_0_S2x8 d j
  · exact (broadcastTo_1b_ab_apply _ broadcasts_S1x8_S4096x8 r j).trans
      (shapeCast_a_1a_apply x2 shapeCasts_S8_S1x8 0 j)

theorem firstMask_at (j : Fin 8) : firstMask x0 x1 x2 (ix2 r j) = Ideal.cmp .ogt (pre1 x1 x2 (row x0 r) j) zero := by
  show Ideal.cmp .ogt (firstPre x0 x1 x2 (ix2 r j)) zero = _
  rw [firstPre_at]

theorem firstAct_at (j : Fin 8) :
    firstAct x0 x1 x2 (ix2 r j) = switch (pre1 x1 x2 (row x0 r) j) (pre1 x1 x2 (row x0 r) j) := by
  show Scalar.select (firstMask x0 x1 x2 (ix2 r j)) (firstPre x0 x1 x2 (ix2 r j)) zero = _
  rw [firstMask_at, firstPre_at]
  rfl

theorem secondPre_at (k : Fin 4) : secondPre x0 x1 x2 x3 x4 (ix2 r k) = pre2 x1 x2 x3 x4 (row x0 r) k := by
  unfold pre2
  refine congrArg₂ (· + ·) ?_ ?_
  · refine (product_second (firstAct x0 x1 x2) _ r k).trans (Finset.sum_congr rfl fun j _ => ?_)
    rw [firstAct_at]
    exact congrArg (_ * ·) (transpose_ix2_apply x3 transposes_S4x8_p1_0_S8x4 j k)
  · exact (broadcastTo_1b_ab_apply _ broadcasts_S1x4_S4096x4 r k).trans
      (shapeCast_a_1a_apply x4 shapeCasts_S4_S1x4 0 k)

theorem secondBack_at (k : Fin 4) :
    secondBack x0 x1 x2 x3 x4 x5 (ix2 r k) = switch (pre2 x1 x2 x3 x4 (row x0 r) k) (x5 (ix1 k)) := by
  show Scalar.select (Ideal.cmp .ogt (secondPre x0 x1 x2 x3 x4 (ix2 r k)) zero)
    (broadcastTo S4096x4 (shapeCast S1x4 (shapeCast S1x4 (shapeCast S4 x5 shapeCasts_S4_S4) shapeCasts_S4_S1x4)
      shapeCasts_S1x4_S1x4) broadcasts_S1x4_S4096x4 (ix2 r k)) zero = _
  rw [secondPre_at, shapeCast_self, shapeCast_self,
    broadcastTo_1b_ab_apply _ broadcasts_S1x4_S4096x4 r k, shapeCast_a_1a_apply x5 shapeCasts_S4_S1x4 0 k]
  rfl

theorem firstBack_at (j : Fin 8) :
    firstBack x0 x1 x2 x3 x4 x5 (ix2 r j) = back x1 x2 x3 x4 (fun k => x5 (ix1 k)) (row x0 r) j := by
  show Scalar.select (firstMask x0 x1 x2 (ix2 r j))
    (matmul dot_S4096x4_S4x8_S4096x8_1_0_0_1_n_n (some .fp32) (secondBack x0 x1 x2 x3 x4 x5) x3
      (constant S4096x8 .f32 0x00000000#32) (ix2 r j)) zero = _
  rw [firstMask_at, product_back_second]
  unfold back switch
  refine congrArg (Scalar.select _ · zero) (Finset.sum_congr rfl fun k _ => ?_)
  rw [secondBack_at]
  rfl

/-- The stored value at (r, d): the force on row r, with the loaded vector in the place of the read-out's column sums. -/
theorem stored_at (d : Fin 2) :
    k0_pay1 (F := Ideal) x0 x1 x2 x3 x4 x5 (ix2 r d) = force x1 x2 x3 x4 (fun k => x5 (ix1 k)) (row x0 r) d := by
  rw [stored_eq]
  show zero - matmul dot_S4096x8_S8x2_S4096x2_1_0_0_1_n_n (some .fp32) (firstBack x0 x1 x2 x3 x4 x5) x1
    (constant S4096x2 .f32 0x00000000#32) (ix2 r d) = _
  rw [zero_sub_eq, product_back_first]
  unfold force
  refine congrArg Neg.neg (Finset.sum_congr rfl fun j _ => ?_)
  rw [firstBack_at]

end Cert.KernelIdeal.BodyForce

end
-- ==== Proof.KernelForce.lean ====
/-
  The kernel's result array is the array of forces.

  The grid has 1024 points; point t works on rows 4096·t … 4096·t + 4095 of the positions and writes the same rows of the
  result, and at every point the weight and bias arrays, and the vector computed before the call, are staged whole. So:
  • the vector staged by the sixth input window is the read-out's column sums — the caller's sum over the read-out's
    first axis, from zero;
  • what point t writes back is, at local row r, the force on position 4096·t + r (the body's stored value on a row of
    its block), that is rows 4096·t … of the array of forces;
  • the 1024 row blocks tile the result array — row i lies in the block of point i / 4096 —, so after the run the array
    holds the forces everywhere.
-/
import proofs.«105294_j20615843020916_2_alg».proof.Proof.Gen.KernelIdeal.Value
import proofs.«105294_j20615843020916_2_alg».proof.Proof.BodyForce
import Idealize.ShloMosaic.PureOps.Ideal.Laws
import Idealize.ShloMosaic.Lib.Pipeline.Value
import Idealize.ShloMosaic.Lib.StableHlo.Run

noncomputable section

open scoped BigOperators

namespace Cert.KernelIdeal.KernelForce

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Force Cert.KernelIdeal.BodyForce

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The block indices, decided over the 1024 points: the positions' and the result's blocks are block t of rows, every
    other window's block is its whole array. -/
theorem block_indices : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0 :=
  (by decide +kernel : ∀ t : Fin grid0.N, _)

/-- Row r of point t's block is row 4096·t + r of the array. -/
def rowOf (t : Fin cfg0.N) (r : Fin 4096) : Fin 4194304 :=
  ⟨t.val * 4096 + r.val, by have := t.isLt; have hN : cfg0.N = 1024 := N_0; have := r.isLt; omega⟩

/-! ## The input windows' blocks -/

/-- The positions' block at point t, at (r, d): the positions at (4096·t + r, d). -/
theorem positions_block (c : Dev nD) (t : Fin cfg0.N) (r : Fin 4096) (d : Fin 2) :
    (iblk m c 0 t : FVec Ideal S4096x2 .f32) (ix2 r d) = (m ((c : Thread nD τ).loc main_arg0) : S4194304x2.Idx → EReal) (ix2 (rowOf t r) d) := by
  obtain ⟨e0, e1, -⟩ := block_indices t
  show V m c main_arg0 (((cfg0.win 0).blk t).view.emb (ix2 r d)) = _
  rw [V_main_arg0]
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 2 + 1 * d.val = d.val; omega

theorem first_weights_block (c : Dev nD) (t : Fin cfg0.N) :
    (iblk m c 1 t : FVec Ideal S8x2 .f32) = m ((c : Thread nD τ).loc main_arg1) := by
  obtain ⟨-, -, -, -, e0, e1, -⟩ := block_indices t
  funext y
  show V m c main_arg1 (((cfg0.win 1).blk t).view.emb y) = _
  rw [V_main_arg1]
  refine congrArg _ (funext fun a => Fin.ext ?_)
  match a with
  | ⟨0, _⟩ => show win0_1.index t (0 : Fin 2) * 8 + 1 * (y 0).val = (y 0).val; omega
  | ⟨1, _⟩ => show win0_1.index t (1 : Fin 2) * 2 + 1 * (y 1).val = (y 1).val; omega

theorem first_bias_block (c : Dev nD) (t : Fin cfg0.N) :
    (iblk m c 2 t : FVec Ideal S8 .f32) = m ((c : Thread nD τ).loc main_arg2) := by
  obtain ⟨-, -, -, -, -, -, e0, -⟩ := block_indices t
  funext y
  show V m c main_arg2 (((cfg0.win 2).blk t).view.emb y) = _
  rw [V_main_arg2]
  refine congrArg _ (funext fun a => Fin.ext ?_)
  match a with
  | ⟨0, _⟩ => show win0_2.index t (0 : Fin 1) * 8 + 1 * (y 0).val = (y 0).val; omega

theorem second_weights_block (c : Dev nD) (t : Fin cfg0.N) :
    (iblk m c 3 t : FVec Ideal S4x8 .f32) = m ((c : Thread nD τ).loc main_arg3) := by
  obtain ⟨-, -, -, -, -, -, -, e0, e1, -⟩ := block_indices t
  funext y
  show V m c main_arg3 (((cfg0.win 3).blk t).view.emb y) = _
  rw [V_main_arg3]
  refine congrArg _ (funext fun a => Fin.ext ?_)
  match a with
  | ⟨0, _⟩ => show win0_3.index t (0 : Fin 2) * 4 + 1 * (y 0).val = (y 0).val; omega
  | ⟨1, _⟩ => show win0_3.index t (1 : Fin 2) * 8 + 1 * (y 1).val = (y 1).val; omega

theorem second_bias_block (c : Dev nD) (t : Fin cfg0.N) :
    (iblk m c 4 t : FVec Ideal S4 .f32) = m ((c : Thread nD τ).loc main_arg4) := by
  obtain ⟨-, -, -, -, -, -, -, -, -, e0, -⟩ := block_indices t
  funext y
  show V m c main_arg4 (((cfg0.win 4).blk t).view.emb y) = _
  rw [V_main_arg4]
  refine congrArg _ (funext fun a => Fin.ext ?_)
  match a with
  | ⟨0, _⟩ => show win0_4.index t (0 : Fin 1) * 4 + 1 * (y 0).val = (y 0).val; omega

/-- The array the sixth input window stages is the caller's sum of the read-out over its first axis, from zero: at k,
    the read-out's column sum. -/
theorem column_sums_array (c : Dev nD) (k : Fin 4) :
    (V m c main_v0 : S4.Idx → EReal) (ix1 k) = colsum (m ((c : Thread nD τ).loc main_arg5)) k := by
  have e : (V m c main_v0 : S4.Idx → EReal)
      = Host.reduceAdd (F := Ideal) (m ((c : Thread nD τ).loc main_arg5)) (constant (F := Ideal) S_ .f32 0x00000000#32)
          reducesTo_S2x4_S4_d0 h_S_ := by
    dsimp only [Gen.V, Gen.hostOps0]; after_results
  rw [e]
  unfold Host.reduceAdd colsum
  rw [Ideal.hostReduceAdd_def]
  refine (Ideal.hostReduceAdd_single reducesTo_S2x4_S4_d0 (by decide) _ _ (ix1 k)).trans ?_
  refine (zero_add_eq _).trans (Finset.sum_congr rfl fun o _ => congrArg _ ?_)
  funext a; apply Fin.ext
  match a with
  | ⟨0, _⟩ => rfl
  | ⟨1, _⟩ => rfl

theorem column_sums_block (c : Dev nD) (t : Fin cfg0.N) (k : Fin 4) :
    (iblk m c 5 t : FVec Ideal S4 .f32) (ix1 k) = colsum (m ((c : Thread nD τ).loc main_arg5)) k := by
  obtain ⟨-, -, -, -, -, -, -, -, -, -, e0⟩ := block_indices t
  refine Eq.trans ?_ (column_sums_array m c k)
  show V m c main_v0 (((cfg0.win 5).blk t).view.emb (ix1 k)) = _
  refine congrArg _ (funext fun a => Fin.ext ?_)
  match a with
  | ⟨0, _⟩ => show win0_5.index t (0 : Fin 1) * 4 + 1 * k.val = k.val; omega

/-! ## What a point writes back -/

/-- An entry of the result's block at point t sits at row 4096·t + r of the array. -/
theorem result_block_index (t : Fin cfg0.N) (r : Fin 4096) (d : Fin 2) :
    ((cfg0.win 6).blk t).view.emb (ix2 r d) = (ix2 (rowOf t r) d : S4194304x2.Idx) := by
  obtain ⟨-, -, e0, e1, -⟩ := block_indices t
  refine funext fun a => Fin.ext ?_
  match a with
  | ⟨0, _⟩ => show win0_6.index t (0 : Fin 2) * 4096 + 1 * r.val = t.val * 4096 + r.val; omega
  | ⟨1, _⟩ => show win0_6.index t (1 : Fin 2) * 2 + 1 * d.val = d.val; omega

/-- The array of forces of the arguments as launched. -/
abbrev result (c : Dev nD) : Buf (Elt Ideal) ((c : Thread nD τ).loc main_v1) :=
  forces (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back is block t of the array of forces. -/
theorem flushed_eq (c : Dev nD) (t : Fin cfg0.N) :
    (dats m 0 c).flushed 6 t = ((cfg0.win 6).blk t).view.read (Elt Ideal) (result m c) := by
  rw [flushed6]
  unfold out0_6
  rw [View.canon_unit_zero origin2]
  simp only [View.ld_unit_zero (S := S4096x2) origin2, View.ld_unit_zero (S := S8x2) origin2,
    View.ld_unit_zero (S := S8) origin1, View.ld_unit_zero (S := S4x8) origin2, View.ld_unit_zero (S := S4) origin1]
  refine funext fun (y : S4096x2.Idx) => ?_
  obtain ⟨r, d, rfl⟩ : ∃ (r : Fin 4096) (d : Fin 2), y = ix2 r d := ⟨y 0, y 1, eq_ix2 y⟩
  show k0_pay1 (F := Ideal) (iblk m c 0 t) (iblk m c 1 t) (iblk m c 2 t) (iblk m c 3 t) (iblk m c 4 t) (iblk m c 5 t) (ix2 r d)
    = result m c (((cfg0.win 6).blk t).view.emb (ix2 r d))
  refine (stored_at (iblk m c 0 t) (iblk m c 1 t) (iblk m c 2 t) (iblk m c 3 t) (iblk m c 4 t) (iblk m c 5 t) r d).trans ?_
  rw [result_block_index, first_weights_block, first_bias_block, second_weights_block, second_bias_block]
  show _ = force _ _ _ _ (colsum _) (fun d' => (m ((c : Thread nD τ).loc main_arg0) : S4194304x2.Idx → EReal) (ix2 (rowOf t r) d')) d
  congr 1
  · exact funext fun k => column_sums_block m c t k
  · exact funext fun d' => positions_block m c t r d'

/-! ## The cover, and the run -/

/-- An index of the result array is in point t's block iff each coordinate is in the block's range on its axis. -/
theorem mem_block (t : Fin cfg0.N) (i : S4194304x2.Idx) :
    i ∈ ((cfg0.win 6).blk t).view.set ↔ ∀ a : Fin 2, win0_6.index t a * S4096x2.size a ≤ (i a).val ∧ (i a).val < win0_6.index t a * S4096x2.size a + S4096x2.size a := by
  show i ∈ ((View.whole main_v1).slice (win0_6.rect t)).set ↔ _
  rw [View.set_slice_whole, Rect.mem_set_unit]
  exact Iff.rfl

/-- Every index of the result array is in some point's block: row i in the block of point i / 4096. -/
theorem covered (i : S4194304x2.Idx) :
    ∃ t : Fin cfg0.N, (cfg0.win 6).flush t = true ∧ i ∈ ((cfg0.win 6).blk t).view.set := by
  have hi0 : (i 0).val < 4194304 := (i 0).isLt
  have hi1 : (i 1).val < 2 := (i 1).isLt
  have hN : cfg0.N = 1024 := N_0
  obtain ⟨t, ht⟩ : ∃ t : Fin cfg0.N, t.val = (i 0).val / 4096 := ⟨⟨(i 0).val / 4096, by omega⟩, rfl⟩
  obtain ⟨-, -, e0, e1, -⟩ := block_indices t
  refine ⟨t, flush0_6 t, ?_⟩
  rw [mem_block]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 2 ≤ (i 1).val ∧ (i 1).val < win0_6.index t (1 : Fin 2) * 2 + 2; omega

/-- After the run the result array holds the forces. -/
theorem final (c : Dev nD) : (dats m 0 c).arrAt 6 cfg0.N = result m c :=
  (dats m 0 c).arrAt_eq_of_cover 6 (result m c) (fun t _ => flushed_eq m c t) covered

/-- The kernel's run, read: the result array at the forces of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KernelForce

end
-- ==== Proof.lean ====
/-
  A kernel that computes the force of a two-layer rectifier network on 4,194,304 planar positions, against the reference
  that obtains the same force by differentiating the network's energy.

  For a position p the network is a = p·W1ᵀ + b1, h = a where a exceeds zero (zero elsewhere), u = h·W2ᵀ + b2, and the
  energy is the sum of the outputs of a linear read-out W3 of the rectified u, summed over all positions. The force on a
  position is minus the energy's gradient there: with s the read-out's column sums, g = s where u exceeds zero, e = g·W2
  where a exceeds zero, f = −e·W1 (Proof/Force.lean states this row by row).
  • The reference runs the forward pass and the mechanically derived backward pass on the whole batch; stage by stage, on
    row n, these are a, h, u, s, g, e, f (Proof/RefForce.lean): its rectifier is a maximum with zero, which is the switch
    passing its own argument, and its s is a row of ones contracted with the read-out.
  • The kernel takes s from a sum made before the call and computes, per block of 4096 rows, the same stages with the
    backward pass written out by hand; what it stores at local row r is f on that row (Proof/BodyForce.lean), its 1024
    blocks tile the result, and so its result array is the array of forces (Proof/KernelForce.lean).
  Both results are therefore one function of the arguments, entry by entry, on the extended reals. Only laws that hold
  at the infinities are used (zero is neutral for the sum, one for the product, a maximum with zero is a switch), so the
  precondition is never opened. The idealization rewrote no operation, and the three programs' frames are their runs.
-/
import proofs.«105294_j20615843020916_2_alg».proof.Defs
import proofs.«105294_j20615843020916_2_alg».proof.Proof.Gen.Kernel
import proofs.«105294_j20615843020916_2_alg».proof.Proof.Gen.Kernel.Skeleton
import proofs.«105294_j20615843020916_2_alg».proof.Proof.Gen.Kernel.Launch
import proofs.«105294_j20615843020916_2_alg».proof.Proof.Gen.Kernel.Points
import proofs.«105294_j20615843020916_2_alg».proof.Proof.Gen.Kernel.Frame
import proofs.«105294_j20615843020916_2_alg».proof.Proof.Gen.KernelIdeal
import proofs.«105294_j20615843020916_2_alg».proof.Proof.Gen.KernelIdeal.Skeleton
import proofs.«105294_j20615843020916_2_alg».proof.Proof.Gen.KernelIdeal.Launch
import proofs.«105294_j20615843020916_2_alg».proof.Proof.Gen.KernelIdeal.Points
import proofs.«105294_j20615843020916_2_alg».proof.Proof.Gen.KernelIdeal.Frame
import proofs.«105294_j20615843020916_2_alg».proof.Proof.Gen.ReferenceIdeal
import proofs.«105294_j20615843020916_2_alg».proof.Proof.Gen.Pre_finite_inputs
import proofs.«105294_j20615843020916_2_alg».proof.Proof.Gen.KernelIdeal.Value
import proofs.«105294_j20615843020916_2_alg».proof.Proof.Gen.ReferenceIdeal.Run
import proofs.«105294_j20615843020916_2_alg».proof.Proof.Gen.ReferenceIdeal.Read
import proofs.«105294_j20615843020916_2_alg».proof.Proof.RefForce
import proofs.«105294_j20615843020916_2_alg».proof.Proof.KernelForce
import Idealize.ShloMosaic.Adequacy
import Idealize.ShloMosaic.Init

noncomputable section

namespace Cert.Proof

open Idealize.ShloMosaic Idealize.SL.Sem Cert.Kernel

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the forces of its arguments, the reference's at its composed operations of
    arguments that agree with the kernel's, which is the same array of forces. -/
theorem algebraic : Cert.algebraic_KernelIdeal_ReferenceIdeal := by
  intro m ρ m' ρ' _ hagree
  refine ⟨fun c => Cert.KernelIdeal.KernelForce.result m c, Cert.KernelIdeal.KernelForce.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v29_eq, Cert.ReferenceIdeal.RefForce.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
